-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x35 : Shape := ⟨2, ![1, 35]⟩
abbrev S35 : Shape := ⟨1, ![35]⟩
abbrev S35x1 : Shape := ⟨2, ![35, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x35 : S_.BroadcastsInDim S1x35 (![] : Fin 0 → Fin S1x35.rank)
  reducesTo_S1x35_S_d0_1 : S1x35.ReducesTo [0, 1] S_
  bcast_S_S35 : S_.BroadcastsInDim S35 (![] : Fin 0 → Fin S35.rank)
  reducesTo_S35_S_d0 : S35.ReducesTo [0] S_
  bcast_S_S35x1 : S_.BroadcastsInDim S35x1 (![] : Fin 0 → Fin S35x1.rank)
  reducesTo_S35x1_S_d0_1 : S35x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S35x1 1) : IVec S_ 1 :=
  let main_c_5 : IVec S_ 1 := constantI S_ 1 1#1
  let main_v17 : IVec S_ 1 := (fun x v => Host.reduce IntOp.andi x v reducesTo_S35x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S2x1600000 32) (main_arg2 : FVec F S1x35 .f32) (main_arg3 : FVec F S35 .f32) (main_arg4 : FVec F S35x1 .f32) (main_arg5 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x35 .f32 := Host.absf main_arg2
  let main_cst_0 : FVec F S_ .f32 := constant S_ .f32 0x7F800000#32
  let main_v5 : FVec F S1x35 .f32 := broadcastInDim S1x35 ![] bcast_S_S1x35 main_cst_0
  let main_v6 : IVec S1x35 1 := cmpf .olt main_v4 main_v5
  let main_c_1 : IVec S_ 1 := constantI S_ 1 1#1
  let main_v7 : IVec S_ 1 := (fun x v => Host.reduce IntOp.andi x v reducesTo_S1x35_S_d0_1 h_S_) main_v6 main_c_1
  let main_v8 : IVec S_ 1 := andi main_v3 main_v7
  let main_v9 : FVec F S35 .f32 := Host.absf main_arg3
  let main_cst_2 : FVec F S_ .f32 := constant S_ .f32 0x7F800000#32
  let main_v10 : FVec F S35 .f32 := broadcastInDim S35 ![] bcast_S_S35 main_cst_2
  let main_v11 : IVec S35 1 := cmpf .olt main_v9 main_v10
  let main_c_3 : IVec S_ 1 := constantI S_ 1 1#1
  let main_v12 : IVec S_ 1 := (fun x v => Host.reduce IntOp.andi x v reducesTo_S35_S_d0 h_S_) main_v11 main_c_3
  let main_v13 : IVec S_ 1 := andi main_v8 main_v12
  let main_v14 : FVec F S35x1 .f32 := Host.absf main_arg4
  let main_cst_4 : FVec F S_ .f32 := constant S_ .f32 0x7F800000#32
  let main_v15 : FVec F S35x1 .f32 := broadcastInDim S35x1 ![] bcast_S_S35x1 main_cst_4
  let main_v16 : IVec S35x1 1 := cmpf .olt main_v14 main_v15
  fn_part1 (F := F) main_arg5 main_v13 main_v16
-- ==== Kernel.lean ====
abbrev S100000x1 : Shape := ⟨2, ![100000, 1]⟩
abbrev S2x1600000 : Shape := ⟨2, ![2, 1600000]⟩
abbrev S1x35 : Shape := ⟨2, ![1, 35]⟩
abbrev S35 : Shape := ⟨1, ![35]⟩
abbrev S35x1 : Shape := ⟨2, ![35, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x1 : Shape := ⟨2, ![5000, 1]⟩
abbrev S5000x35 : Shape := ⟨2, ![5000, 35]⟩
abbrev S5000 : Shape := ⟨1, ![5000]⟩
abbrev S1x1 : Shape := ⟨2, ![1, 1]⟩

abbrev nBuf : Space → Nat
  | .hbm => 83
  | .vmem => 12
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x35, .f32⟩
  | .hbm, ⟨3, _⟩ => ⟨S35, .f32⟩
  | .hbm, ⟨4, _⟩ => ⟨S35x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S1700000, .f32⟩
  | .hbm, ⟨57, _⟩ => ⟨S_, .f32⟩
  | .hbm, ⟨58, _⟩ => ⟨S100000, .f32⟩
  | .hbm, ⟨59, _⟩ => ⟨S1700000x1, .i32⟩
  | .hbm, ⟨60, _⟩ => ⟨S100000, .f32⟩
  | .hbm, ⟨61, _⟩ => ⟨S100000x1, .f32⟩
  | .hbm, ⟨62, _⟩ => ⟨S1x35, .f32⟩
  | .hbm, ⟨63, _⟩ => ⟨S1x35, .f32⟩
  | .hbm, ⟨64, _⟩ => ⟨S100000x1, .f32⟩
  | .hbm, ⟨65, _⟩ => ⟨S100000, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000, .f32⟩
  | .hbm, ⟨75, _⟩ => ⟨S1700000, .f32⟩
  | .hbm, ⟨76, _⟩ => ⟨S_, .f32⟩
  | .hbm, ⟨77, _⟩ => ⟨S100000, .f32⟩
  | .hbm, ⟨78, _⟩ => ⟨S1700000x1, .i32⟩
  | .hbm, ⟨79, _⟩ => ⟨S100000, .f32⟩
  | .hbm, ⟨80, _⟩ => ⟨S100000x1, .f32⟩
  | .hbm, ⟨81, _⟩ => ⟨S1x1, .f32⟩
  | .hbm, ⟨82, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S1x35, .f32⟩
  | .local _ .vmem, ⟨3, _⟩ => ⟨S1x35, .f32⟩
  | .local _ .vmem, ⟨4, _⟩ => ⟨S1x35, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S5000x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x35 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x35 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x35 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000x1_S100000 : S100000x1.ShapeCasts S100000
  bcast_S100000_S100000x1_0 : S100000.BroadcastsInDim S100000x1 (![0] : Fin 1 → Fin S100000x1.rank)
  transposes_S35x1_S1x35_1_0 : S35x1.Transposes [1, 0] S1x35
  bcast_S35_S1x35_1 : S35.BroadcastsInDim S1x35 (![1] : Fin 1 → Fin S1x35.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x35_S1x35_0_0 : ∀ a, (![0, 0] : Fin 2 → Nat) a + S1x35.size a ≤ S1x35.size a
  h_S1x35 : 0 < S1x35.numel
  broadcasts_S5000x1_S5000x35 : S5000x1.Broadcasts S5000x35
  broadcasts_S1x35_S5000x35 : S1x35.Broadcasts S5000x35
  shapeCasts_S1x35_S1x35 : S1x35.ShapeCasts S1x35
  reduces_S5000x35_S5000 : S5000x35.Reduces [1] S5000
  shapeCasts_S5000_S5000x1 : S5000.ShapeCasts S5000x1
  bcast_S1_S1x1_1 : S1.BroadcastsInDim S1x1 (![1] : Fin 1 → Fin S1x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x35.size a ≤ S1x35.size a
  hwx0_1 : ∀ i : grid0.Coords, EltTy.bits .f32 = 32 ∨ (Rect.block (s := S1x35) S1x35.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x35.size a ≤ S1x35.size a
  hwx0_2 : ∀ i : grid0.Coords, EltTy.bits .f32 = 32 ∨ (Rect.block (s := S1x35) S1x35.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x35.size a ≤ S1x35.size a
  hwx0_3 : ∀ i : grid0.Coords, EltTy.bits .f32 = 32 ∨ (Rect.block (s := S1x35) S1x35.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf

abbrev win0_0 : Pipeline.Window sig grid0 :=
  Pipeline.Window.ofSpec (Memref.whole main_v42) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x35.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x35.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x35.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v58) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S5000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x35 : Shape := ⟨2, ![1, 35]⟩
abbrev S35 : Shape := ⟨1, ![35]⟩
abbrev S35x1 : Shape := ⟨2, ![35, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x35 : Shape := ⟨2, ![100000, 35]⟩
abbrev S1700000x35 : Shape := ⟨2, ![1700000, 35]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x35, .f32⟩
  | .hbm, ⟨3, _⟩ => ⟨S35, .f32⟩
  | .hbm, ⟨4, _⟩ => ⟨S35x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x35, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x35, .f32⟩
  | .hbm, ⟨56, _⟩ => ⟨S1700000x1, .f32⟩
  | .hbm, ⟨57, _⟩ => ⟨S1700000x35, .f32⟩
  | .hbm, ⟨58, _⟩ => ⟨S1700000x35, .f32⟩
  | .hbm, ⟨59, _⟩ => ⟨S_, .f32⟩
  | .hbm, ⟨60, _⟩ => ⟨S100000x35, .f32⟩
  | .hbm, ⟨61, _⟩ => ⟨S1700000x1, .i32⟩
  | .hbm, ⟨62, _⟩ => ⟨S100000x35, .f32⟩
  | .hbm, ⟨63, _⟩ => ⟨S1x35, .f32⟩
  | .hbm, ⟨64, _⟩ => ⟨S100000x35, .f32⟩
  | .hbm, ⟨65, _⟩ => ⟨S100000x35, .f32⟩
  | .hbm, ⟨66, _⟩ => ⟨S100000x35, .f32⟩
  | .hbm, ⟨67, _⟩ => ⟨S100000x35, .f32⟩
  | .hbm, ⟨68, _⟩ => ⟨S_, .f32⟩
  | .hbm, ⟨69, _⟩ => ⟨S100000x35, .f32⟩
  | .hbm, ⟨70, _⟩ => ⟨S100000x35, .f32⟩
  | .hbm, ⟨71, _⟩ => ⟨S_, .f32⟩
  | .hbm, ⟨72, _⟩ => ⟨S100000x35, .f32⟩
  | .hbm, ⟨73, _⟩ => ⟨S100000x35, .f32⟩
  | .hbm, ⟨74, _⟩ => ⟨S100000x1, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x1, .f32⟩
  | .hbm, ⟨84, _⟩ => ⟨S1700000x1, .f32⟩
  | .hbm, ⟨85, _⟩ => ⟨S1700000x1, .f32⟩
  | .hbm, ⟨86, _⟩ => ⟨S_, .f32⟩
  | .hbm, ⟨87, _⟩ => ⟨S100000x1, .f32⟩
  | .hbm, ⟨88, _⟩ => ⟨S1700000x1, .i32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x35_0_1 : S1700000x1.BroadcastsInDim S1700000x35 (![0, 1] : Fin 2 → Fin S1700000x35.rank)
  bcast_S_S100000x35 : S_.BroadcastsInDim S100000x35 (![] : Fin 0 → Fin S100000x35.rank)
  bcast_S35_S1x35_1 : S35.BroadcastsInDim S1x35 (![1] : Fin 1 → Fin S1x35.rank)
  bcast_S1x35_S100000x35_0_1 : S1x35.BroadcastsInDim S100000x35 (![0, 1] : Fin 2 → Fin S100000x35.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x35_S100000x35_1_0_0_1_n_n_wf : DotDims.WF S100000x1 S1x35 S100000x35 [1] [0] [0] [1] [] []
  gather_S100000x35_S1700000x1_S1700000x35_1_0_n_n_0_1_135_wf : GatherDims.WF S100000x35 S1700000x1 S1700000x35 [1] [0] [] [0] [] 1 ![1, 35]
  scatter_S100000x35_S1700000x1_S1700000x35_1_0_0_1_wf : ScatterDims.WF S100000x35 S1700000x1 S1700000x35 [1] [0] [0] 1
  dot_S100000x35_S35x1_S100000x1_1_0_0_1_n_n_wf : DotDims.WF S100000x35 S35x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x35_S100000x35_1_0_0_1_n_n : DotDims S100000x1 S1x35 S100000x35 where
  lhsContracting := [1]
  rhsContracting := [0]
  lhsNonContracting := [0]
  rhsNonContracting := [1]
  lhsBatch := []
  rhsBatch := []
  wf := dot_S100000x1_S1x35_S100000x35_1_0_0_1_n_n_wf
def gather_S100000x35_S1700000x1_S1700000x35_1_0_n_n_0_1_135 : GatherDims S100000x35 S1700000x1 S1700000x35 where
  offsetDims := [1]
  collapsedSliceDims := [0]
  operandBatchingDims := []
  startIndicesBatchingDims := []
  startIndexMap := [0]
  indexVectorDim := 1
  sliceSizes := ![1, 35]
  wf := gather_S100000x35_S1700000x1_S1700000x35_1_0_n_n_0_1_135_wf
def scatter_S100000x35_S1700000x1_S1700000x35_1_0_0_1 : ScatterDims S100000x35 S1700000x1 S1700000x35 where
  updateWindowDims := [1]
  insertedWindowDims := [0]
  scatterDimsToOperandDims := [0]
  indexVectorDim := 1
  wf := scatter_S100000x35_S1700000x1_S1700000x35_1_0_0_1_wf
def dot_S100000x35_S35x1_S100000x1_1_0_0_1_n_n : DotDims S100000x35 S35x1 S100000x1 where
  lhsContracting := [1]
  rhsContracting := [0]
  lhsNonContracting := [0]
  rhsNonContracting := [1]
  lhsBatch := []
  rhsBatch := []
  wf := dot_S100000x35_S35x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.EdgeLayers.lean ====
/-
  Two graph-convolution layers on scalar node features, over sums along edges.

  An edge e carries a weight ν e, reads node row e, and lands on the nodes n with "lands e n" (at most one n, or none).
  The edge sum of a at node n is Σ_e [lands e n] a e.

  Layer 1 maps the scalar feature x to C hidden units; layer 2 maps them back to a scalar:
    hidden m  = Σ_f σ( (Σ_e [lands e m] x(row e) · ν e) · w1 f + b1 f ) · w2 f
    result n  = σ( (Σ_e [lands e n] hidden(row e) · ν e) + b2 )
  with σ z = 1 / (1 + exp (−z)).

  The other arrangement of layer 1 multiplies by the weight BEFORE summing along the edges:
    Σ_e [lands e m] (x(row e) · w1 f) · ν e.
  The two agree when x, ν and w1 are real numbers: then every summand is real and the factor w1 f leaves the sum by
  distributivity. On the extended reals that law needs the finiteness: with summands +∞ and −∞ and a negative factor the
  two sides differ.

  The edge weight is a product of two values of d ↦ (if 0 < d then d^(−1/2) else 0), which is a real number for EVERY
  extended real d (at d = +∞ it is 0): so ν is real whatever the degrees are.
-/
import Idealize.ShloMosaic.PureOps.Ideal.Laws
import Idealize.ShloMosaic.Lib.ValueIdx
import proofs.«107229_j75557064671746_2_alg».proof.Proof.LibERealSum

noncomputable section

namespace Cert.EdgeLayers

open Idealize.ShloMosaic

variable {E N C : Type} [Fintype E] [Fintype C]

/-- The sum of a e over the edges e that land on node n. -/
def edgeSum (lands : E → N → Prop) [∀ e n, Decidable (lands e n)] (a : E → EReal) (n : N) : EReal :=
  ∑ e, if lands e n then a e else 0

/-- A real weight leaves the edge sum when every summand is real. -/
theorem edgeSum_mul_weight (lands : E → N → Prop) [∀ e n, Decidable (lands e n)] (xs nu : E → EReal) (w : EReal)
    (hx : ∀ e, ∃ r : ℝ, xs e = r) (hn : ∀ e, ∃ r : ℝ, nu e = r) (hw : ∃ r : ℝ, w = r) (n : N) :
    edgeSum lands (fun e => xs e * w * nu e) n = edgeSum lands (fun e => xs e * nu e) n * w := by
  choose x' hx using hx
  choose n' hn using hn
  obtain ⟨w', rfl⟩ := hw
  unfold edgeSum
  have h1 : ∀ e, (if lands e n then xs e * (w' : EReal) * nu e else 0)
      = (((if lands e n then x' e * w' * n' e else 0 : ℝ)) : EReal) := by
    intro e
    rw [hx, hn]
    split_ifs
    · rw [EReal.coe_mul, EReal.coe_mul]
    · rw [EReal.coe_zero]
  have h2 : ∀ e, (if lands e n then xs e * nu e else 0) = (((if lands e n then x' e * n' e else 0 : ℝ)) : EReal) := by
    intro e
    rw [hx, hn]
    split_ifs
    · rw [EReal.coe_mul]
    · rw [EReal.coe_zero]
  simp only [h1, h2, ← ERealSum.coe_finset_sum, ← EReal.coe_mul]
  congr 1
  rw [Finset.sum_mul]
  refine Finset.sum_congr rfl fun e _ => ?_
  split_ifs <;> ring

/-- The second layer's input at node m. -/
def hidden (lands : E → N → Prop) [∀ e n, Decidable (lands e n)] (row : E → N) (nu : E → EReal) (x : N → EReal)
    (w1 b1 w2 : C → EReal) (m : N) : EReal :=
  ∑ f, Ideal.logistic (edgeSum lands (fun e => x (row e) * nu e) m * w1 f + b1 f) * w2 f

/-- The two layers' result at node n. -/
def twoLayer (lands : E → N → Prop) [∀ e n, Decidable (lands e n)] (row : E → N) (nu : E → EReal) (x : N → EReal)
    (w1 b1 w2 : C → EReal) (b2 : EReal) (n : N) : EReal :=
  Ideal.logistic (edgeSum lands (fun e => hidden lands row nu x w1 b1 w2 (row e) * nu e) n + b2)

/-- Layer 1 with the weight applied before the sum along the edges is the same hidden layer, for real x, ν, w1. -/
theorem hidden_weight_first (lands : E → N → Prop) [∀ e n, Decidable (lands e n)] (row : E → N) (nu : E → EReal)
    (x : N → EReal) (w1 b1 w2 : C → EReal) (hx : ∀ m, ∃ r : ℝ, x m = r) (hn : ∀ e, ∃ r : ℝ, nu e = r)
    (hw : ∀ f, ∃ r : ℝ, w1 f = r) (m : N) :
    (∑ f, Ideal.logistic (edgeSum lands (fun e => x (row e) * w1 f * nu e) m + b1 f) * w2 f)
      = hidden lands row nu x w1 b1 w2 m := by
  unfold hidden
  refine Finset.sum_congr rfl fun f _ => ?_
  rw [edgeSum_mul_weight lands (fun e => x (row e)) nu (w1 f) (fun e => hx (row e)) hn (hw f) m]

/-! ## The float words and the spelled-out sigmoid -/

/-- The f32 word 0x3F800000 denotes 1. -/
theorem one_word : Ideal.ofBits .f32 0x3F800000#32 = (1 : EReal) := by
  simp [Ideal.ofBits, Ideal.ieee, -EReal.coe_mul]; norm_num

/-- 1 / (1 + exp (−z)) with the word of 1.0 is the logistic function, on every extended real. -/
theorem sigmoid_spelled (z : EReal) :
    Ideal.div (Ideal.ofBits .f32 0x3F800000#32) (Ideal.ofBits .f32 0x3F800000#32 + Ideal.exp (-z)) = Ideal.logistic z := by
  rw [one_word]; rfl

/-- d ↦ (if 0 < d then d^(−1/2) else 0) is a real number at every extended real d. -/
theorem real_select_rsqrt (d : EReal) :
    ∃ r : ℝ, Scalar.select (Ideal.cmp .ogt d (Ideal.ofBits .f32 0x00000000#32)) (Ideal.rsqrt d)
      (Ideal.ofBits .f32 0x00000000#32) = r := by
  rw [Ideal.ofBits_zero_f32]
  induction d using EReal.rec with
  | bot => exact ⟨0, by simp [Ideal.cmp, Scalar.select]⟩
  | top => exact ⟨0, by simp [Ideal.cmp, Scalar.select]⟩
  | coe r =>
    by_cases h : (0 : ℝ) < r
    · refine ⟨(Real.sqrt r)⁻¹, ?_⟩
      have hc : Ideal.cmp .ogt (r : EReal) 0 = 1#1 := by simp [Ideal.cmp, h]
      rw [hc, ValueIdx.select_one, Ideal.rsqrt_coe, if_neg (not_lt.mpr h.le), if_neg h.ne']
    · refine ⟨0, ?_⟩
      have hc : Ideal.cmp .ogt (r : EReal) 0 = 0#1 := by simp [Ideal.cmp, h]
      rw [hc, ValueIdx.select_zero]; rfl

/-- The product of two reals is a real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

end Cert.EdgeLayers

end
-- ==== Proof.Graph.lean ====
/-
  The graph both programs compute from the edge list, as index-level data.

  Both programs build, by the same operations, from the edge list [2, 1600000] with 100000 self-loops appended:
  the scatter indices (the destination of each of the 1700000 edges, one scalar per edge), the gather indices (the
  source of each edge, a negative index first shifted by the number of nodes), and the edge weights
  ν e = dinv(src e) · dinv(dst e), where dinv i = (if 0 < deg i then deg i ^ (−1/2) else 0).

  * Edge e LANDS on node n when its scatter index, read as a signed integer, is n (an index outside [0, 100000) lands
    nowhere: the update is dropped).
  * Edge e READS the node row e: its gather index read signed and clamped into [0, 99999].
  * ν e is a real number whatever the edge list holds: each factor is a value of d ↦ (if 0 < d then d^(−1/2) else 0),
    read at some node, and that function is real at every extended real (EdgeLayers.real_select_rsqrt). Which node each
    factor is read at does not matter, nor what the degrees are.
-/
import proofs.«107229_j75557064671746_2_alg».proof.Proof.ReadP
import proofs.«107229_j75557064671746_2_alg».proof.Proof.LibLeadingAxis
import proofs.«107229_j75557064671746_2_alg».proof.Proof.EdgeLayers

noncomputable section

namespace Cert.Graph

open Idealize.ShloMosaic Idealize.ShloMosaic.ValueIdx Idealize.ShloMosaic.LeadingAxis
open Cert.ReferenceIdeal Cert.ReferenceIdeal.ReadP Cert.EdgeLayers

/-- The edge list as the programs receive it. -/
abbrev EdgeList := (⟨S2x1600000, .i32⟩ : BufTy).Contents (Elt Ideal)

/-- Edge e lands on node n. -/
def lands (x1 : EdgeList) (e : Fin 1700000) (n : Fin 100000) : Prop :=
  (val_main_v9 (F := Ideal) x1 (ix2 e 0)).toInt = (n.val : Int)

instance (x1 : EdgeList) (e : Fin 1700000) (n : Fin 100000) : Decidable (lands x1 e n) :=
  inferInstanceAs (Decidable ((val_main_v9 (F := Ideal) x1 (ix2 e 0)).toInt = (n.val : Int)))

/-- The node edge e reads. -/
def row (x1 : EdgeList) (e : Fin 1700000) : Fin 100000 :=
  clampRow 100000 (by decide) (val_main_v20 (F := Ideal) x1 (ix2 e 0))

/-- The weight of edge e. -/
def nu (x1 : EdgeList) (e : Fin 1700000) : EReal := val_main_v29 (F := Ideal) x1 (ix1 e)

/-- The normalising factor is a real number at every node. -/
theorem dinv_real (x1 : EdgeList) (j : S100000.Idx) : ∃ r : ℝ, val_main_v14 (F := Ideal) x1 j = r := by
  rw [val_main_v14_apply, val_main_v12_apply, val_main_v13_apply, val_main_v11_apply, val_main_cst_1_apply,
    val_main_call0_v1_apply, val_main_call0_v0_apply, val_main_cst_2_apply,
    Ideal.cmpf_def, Ideal.hostUnary_rsqrt_def, Ideal.ofBits_def]
  exact real_select_rsqrt (val_main_v10 (F := Ideal) x1 j)

/-- Every edge weight is a real number. -/
theorem nu_real (x1 : EdgeList) (e : Fin 1700000) : ∃ r : ℝ, nu x1 e = r := by
  unfold nu
  rw [val_main_v29_apply, Ideal.mulf_def]
  refine real_mul ?_ ?_
  · unfold val_main_v21 Host.gather
    exact dinv_real x1 _
  · unfold val_main_v28 Host.gather
    exact dinv_real x1 _

/-- The index arrays the later gathers and scatters use are the same arrays. -/
theorem v36_eq (x1 : EdgeList) : val_main_v36 (F := Ideal) x1 = val_main_v20 (F := Ideal) x1 := rfl
theorem v59_eq (x1 : EdgeList) : val_main_v59 (F := Ideal) x1 = val_main_v20 (F := Ideal) x1 := rfl
theorem v42_eq (x1 : EdgeList) : val_main_v42 (F := Ideal) x1 = val_main_v9 (F := Ideal) x1 := rfl
theorem v64_eq (x1 : EdgeList) : val_main_v64 (F := Ideal) x1 = val_main_v9 (F := Ideal) x1 := rfl

end Cert.Graph

end
-- ==== Proof.RefValue.lean ====
/-
  The reference's result, read at node n, is the two-layer function of EdgeLayers over the graph of Graph.

  Stage by stage at coordinates: the first dense product has ONE contracted coordinate, so h(m, f) = x(m) · w1(f); its
  rows are gathered along the edges, scaled by the edge weight, and scatter-added per destination:
  out1(m, f) = Σ_e [lands e m] (x(row e) · w1 f) · ν e. With the bias and the spelled-out sigmoid this is the hidden layer with
  the weight applied before the sum; for real x, w1 (and ν, always real) it is EdgeLayers.hidden. The second dense
  product contracts the 35 hidden units; its column is gathered, scaled, scatter-added, biased and passed through the
  sigmoid the same way.
-/
import proofs.«107229_j75557064671746_2_alg».proof.Proof.Graph

noncomputable section

namespace Cert.RefValue

open Idealize.ShloMosaic Idealize.ShloMosaic.ValueIdx Idealize.ShloMosaic.LeadingAxis
open Cert.ReferenceIdeal Cert.ReferenceIdeal.ReadP Cert.EdgeLayers Cert.Graph

variable (x0 : (⟨S100000x1, .f32⟩ : BufTy).Contents (Elt Ideal)) (x1 : EdgeList)
  (x2 : (⟨S1x35, .f32⟩ : BufTy).Contents (Elt Ideal)) (x3 : (⟨S35, .f32⟩ : BufTy).Contents (Elt Ideal))
  (x4 : (⟨S35x1, .f32⟩ : BufTy).Contents (Elt Ideal)) (x5 : (⟨S1, .f32⟩ : BufTy).Contents (Elt Ideal))

/-- The first dense product: one contracted coordinate. -/
theorem dense1_at (m : Fin 100000) (f : Fin 35) :
    val_main_v30 (F := Ideal) x0 x2 (ix2 m f) = x0 (ix2 m 0) * x2 (ix2 0 f) := by
  rw [val_main_v30_apply, Fin.sum_univ_one]
  have el : lidx_main_v30 (ix2 m f) 0 = ix2 m 0 :=
    funext fun a => Fin.ext (by match a with | ⟨0, _⟩ => rfl | ⟨1, _⟩ => rfl)
  have er : ridx_main_v30 (ix2 m f) 0 = ix2 0 f :=
    funext fun a => Fin.ext (by match a with | ⟨0, _⟩ => rfl | ⟨1, _⟩ => rfl)
  rw [el, er]

/-- Its rows gathered along the edges. -/
theorem gathered1_at (e : Fin 1700000) (f : Fin 35) :
    val_main_v37 (F := Ideal) x0 x1 x2 (ix2 e f) = x0 (ix2 (row x1 e) 0) * x2 (ix2 0 f) := by
  unfold val_main_v37
  rw [v36_eq]
  refine (gather_rows_apply (N := 100000) (C := 35) (E := 1700000) (by decide)
    Facts₀.gather_S100000x35_S1700000x1_S1700000x35_1_0_n_n_0_1_135_wf _ _ e f).trans ?_
  exact dense1_at x0 x2 (row x1 e) f

/-- The edge weight lifted to the message's shape. -/
theorem weight1_at (e : Fin 1700000) (f : Fin 35) : val_main_v39 (F := Ideal) x1 (ix2 e f) = nu x1 e := by
  rw [val_main_v39_apply, val_main_v38_apply]
  exact congrArg (val_main_v29 (F := Ideal) x1) (funext fun a => Fin.ext (by match a with | ⟨0, _⟩ => rfl))

/-- Layer 1 before the bias: the edge sum with the weight applied first. -/
theorem out1_at (m : Fin 100000) (f : Fin 35) :
    val_main_v43 (F := Ideal) x0 x1 x2 (ix2 m f)
      = edgeSum (lands x1) (fun e => x0 (ix2 (row x1 e) 0) * x2 (ix2 0 f) * nu x1 e) m := by
  unfold val_main_v43
  have hd : scatter_S100000x35_S1700000x1_S1700000x35_1_0_0_1
      = rowScatterDims 100000 35 1700000 Facts₀.scatter_S100000x35_S1700000x1_S1700000x35_1_0_0_1_wf := rfl
  rw [v42_eq, hd, scatterAdd_rows_apply]
  rw [val_main_v41_apply, val_main_cst_8_apply]
  show Ideal.ofBits .f32 0x00000000#32 + _ = _
  rw [Ideal.ofBits_zero_f32, zero_add]
  unfold edgeSum
  refine Finset.sum_congr rfl fun e _ => ?_
  rw [val_main_v40_apply, gathered1_at, weight1_at]
  rfl

/-- The bias row lifted to the layer's shape. -/
theorem bias1_at (m : Fin 100000) (f : Fin 35) : val_main_v45 (F := Ideal) x3 (ix2 m f) = x3 (ix1 f) := by
  rw [val_main_v45_apply, val_main_v44_apply]
  exact congrArg x3 (funext fun a => Fin.ext (by match a with | ⟨0, _⟩ => rfl))

/-- The hidden units: the sigmoid of layer 1. -/
theorem hidden_unit_at (m : Fin 100000) (f : Fin 35) :
    val_main_v52 (F := Ideal) x0 x1 x2 x3 (ix2 m f)
      = Ideal.logistic (edgeSum (lands x1) (fun e => x0 (ix2 (row x1 e) 0) * x2 (ix2 0 f) * nu x1 e) m + x3 (ix1 f)) := by
  rw [val_main_v52_apply, val_main_v51_apply, val_main_cst_10_apply, val_main_v50_apply, val_main_v49_apply,
    val_main_cst_9_apply, val_main_v48_apply, val_main_v47_apply, val_main_v46_apply, out1_at, bias1_at]
  simp only [Ideal.hostDivf_def, Ideal.addf_def, Ideal.hostUnary_exp_def, Ideal.hostNegf_def, Ideal.negf_def, Ideal.ofBits_def]
  exact sigmoid_spelled _

/-- The second dense product contracts the hidden units. -/
theorem dense2_at (m : Fin 100000) :
    val_main_v53 (F := Ideal) x0 x1 x2 x3 x4 (ix2 m 0)
      = ∑ f : Fin 35, Ideal.logistic (edgeSum (lands x1) (fun e => x0 (ix2 (row x1 e) 0) * x2 (ix2 0 f) * nu x1 e) m + x3 (ix1 f))
          * x4 (ix2 f 0) := by
  rw [val_main_v53_apply]
  refine Finset.sum_congr rfl fun f _ => ?_
  have el : lidx_main_v53 (ix2 m 0) f = ix2 m f :=
    funext fun a => Fin.ext (by match a with | ⟨0, _⟩ => rfl | ⟨1, _⟩ => rfl)
  have er : ridx_main_v53 (ix2 m 0) f = ix2 f 0 :=
    funext fun a => Fin.ext (by match a with | ⟨0, _⟩ => rfl | ⟨1, _⟩ => rfl)
  rw [el, er, hidden_unit_at]

/-- For real features and first-layer weights that is the hidden layer of EdgeLayers. -/
theorem dense2_eq_hidden (hx : ∀ i, ∃ r : ℝ, x0 i = r) (hw : ∀ i, ∃ r : ℝ, x2 i = r) (m : Fin 100000) :
    val_main_v53 (F := Ideal) x0 x1 x2 x3 x4 (ix2 m 0)
      = hidden (lands x1) (row x1) (nu x1) (fun k => x0 (ix2 k 0)) (fun f => x2 (ix2 0 f)) (fun f => x3 (ix1 f))
          (fun f => x4 (ix2 f 0)) m := by
  rw [dense2_at]
  exact hidden_weight_first (lands x1) (row x1) (nu x1) (fun k => x0 (ix2 k 0)) (fun f => x2 (ix2 0 f))
    (fun f => x3 (ix1 f)) (fun f => x4 (ix2 f 0)) (fun k => hx _) (nu_real x1) (fun f => hw _) m

/-- Its column gathered along the edges. -/
theorem gathered2_at (e : Fin 1700000) :
    val_main_v60 (F := Ideal) x0 x1 x2 x3 x4 (ix2 e 0) = val_main_v53 (F := Ideal) x0 x1 x2 x3 x4 (ix2 (row x1 e) 0) := by
  unfold val_main_v60
  rw [v59_eq]
  exact gather_rows_apply (N := 100000) (C := 1) (E := 1700000) (by decide)
    Facts₀.gather_S100000x1_S1700000x1_S1700000x1_1_0_n_n_0_1_11_wf _ _ e 0

theorem weight2_at (e : Fin 1700000) : val_main_v61 (F := Ideal) x1 (ix2 e 0) = nu x1 e := by
  rw [val_main_v61_apply]
  exact congrArg (val_main_v29 (F := Ideal) x1) (funext fun a => Fin.ext (by match a with | ⟨0, _⟩ => rfl))

theorem bias2_at (n : Fin 100000) : val_main_v67 (F := Ideal) x5 (ix2 n 0) = x5 (ix1 0) := by
  rw [val_main_v67_apply, val_main_v66_apply]
  exact congrArg x5 (funext fun a => Fin.ext (by match a with | ⟨0, _⟩ => rfl))

/-- THE REFERENCE'S RESULT at node n. -/
theorem result_at (hx : ∀ i, ∃ r : ℝ, x0 i = r) (hw : ∀ i, ∃ r : ℝ, x2 i = r) (n : Fin 100000) :
    val_main_v74 (F := Ideal) x0 x1 x2 x3 x4 x5 (ix2 n 0)
      = twoLayer (lands x1) (row x1) (nu x1) (fun k => x0 (ix2 k 0)) (fun f => x2 (ix2 0 f)) (fun f => x3 (ix1 f))
          (fun f => x4 (ix2 f 0)) (x5 (ix1 0)) n := by
  rw [val_main_v74_apply, val_main_v73_apply, val_main_cst_15_apply, val_main_v72_apply, val_main_v71_apply,
    val_main_cst_14_apply, val_main_v70_apply, val_main_v69_apply, val_main_v68_apply, bias2_at]
  have hs : val_main_v65 (F := Ideal) x0 x1 x2 x3 x4 (ix2 n 0)
      = edgeSum (lands x1) (fun e => hidden (lands x1) (row x1) (nu x1) (fun k => x0 (ix2 k 0)) (fun f => x2 (ix2 0 f))
          (fun f => x3 (ix1 f)) (fun f => x4 (ix2 f 0)) (row x1 e) * nu x1 e) n := by
    unfold val_main_v65
    have hd : scatter_S100000x1_S1700000x1_S1700000x1_1_0_0_1
        = rowScatterDims 100000 1 1700000 Facts₀.scatter_S100000x1_S1700000x1_S1700000x1_1_0_0_1_wf := rfl
    rw [v64_eq, hd, scatterAdd_rows_apply]
    rw [val_main_v63_apply, val_main_cst_13_apply]
    show Ideal.ofBits .f32 0x00000000#32 + _ = _
    rw [Ideal.ofBits_zero_f32, zero_add]
    unfold edgeSum
    refine Finset.sum_congr rfl fun e _ => ?_
    rw [val_main_v62_apply, gathered2_at, weight2_at, dense2_eq_hidden x0 x1 x2 x3 x4 hx hw]
    rfl
  rw [hs]
  simp only [Ideal.hostDivf_def, Ideal.addf_def, Ideal.hostUnary_exp_def, Ideal.hostNegf_def, Ideal.negf_def, Ideal.ofBits_def]
  exact sigmoid_spelled _

end Cert.RefValue

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.KernelBody.lean ====
/-
  What the two kernel bodies store, read at one entry of a 5000-row block.

  The first body holds a block of 5000 aggregated features a(p), the rows w1, b1, w2 of 35 entries, and stores
    Σ_f σ( a(p) · w1(f) + b1(f) ) · w2(f)
  at row p: the column is broadcast along the 35 lanes, the rows down the 5000 sublanes, the product with w2 is summed
  along the lanes (a sum over one axis, read as a sum over its 35 coordinates) and kept as a column.
  The second body holds a block of 5000 values z(p) and one bias b, and stores σ(z(p) + b).
-/
import proofs.«107229_j75557064671746_2_alg».proof.Proof.Gen.KernelIdeal.Skeleton
import proofs.«107229_j75557064671746_2_alg».proof.Proof.LibColumn
import Idealize.ShloMosaic.Lib.ValueLayout
import Idealize.ShloMosaic.PureOps.Ideal.Laws

noncomputable section

namespace Cert.KernelIdeal.Body

open Idealize.ShloMosaic Idealize.ShloMosaic.ValueIdx Cert.KernelIdeal
open Facts₀

/-- The sum along the 35 lanes, with the side conditions typed as they are printed. -/
theorem laneSum_at (src : FVec Ideal S5000x35 .f32) (p : Fin 5000) :
    multiReduction (F := Ideal) .add [1] S5000 src 0x00000000#32 reduces_S5000x35_S5000 (.inl rfl) rfl (ix1 p)
      = ∑ f : Fin 35, src (ix2 p f) := by
  refine (Ideal.multiReduction_add_single src 0x00000000#32 reduces_S5000x35_S5000 (.inl rfl) rfl (ix1 p)).trans ?_
  show ∑ k : Fin 35, src (reduces_S5000x35_S5000.lift (ix1 p) k) = _
  refine Finset.sum_congr rfl fun k _ => congrArg src ?_
  funext a
  refine Fin.ext ?_
  match a with
  | ⟨0, _⟩ => rfl
  | ⟨1, _⟩ => rfl

/-- The first body's stored column at row p. -/
theorem layer1_pay_at (v0 : FVec Ideal S5000x1 .f32) (v2 v6 v11 : FVec Ideal S1x35 .f32) (p : Fin 5000) :
    Gen.k0_pay1 (F := Ideal) v0 v2 v6 v11 (ix2 p 0)
      = ∑ f : Fin 35, Ideal.logistic (v0 (ix2 p 0) * v2 (ix2 0 f) + v6 (ix2 0 f)) * v11 (ix2 0 f) := by
  unfold Gen.k0_pay1
  refine (Column.shapeCast_a_a1_apply _ shapeCasts_S5000_S5000x1 p 0).trans ?_
  refine (laneSum_at _ p).trans ?_
  refine Finset.sum_congr rfl fun f _ => ?_
  show Ideal.logistic
      (broadcastTo S5000x35 (shapeCast S5000x1 v0 shapeCasts_S5000x1_S5000x1) broadcasts_S5000x1_S5000x35 (ix2 p f)
          * broadcastTo S5000x35 v2 broadcasts_S1x35_S5000x35 (ix2 p f)
        + broadcastTo S5000x35 (shapeCast S1x35 v6 shapeCasts_S1x35_S1x35) broadcasts_S1x35_S5000x35 (ix2 p f))
      * broadcastTo S5000x35 (shapeCast S1x35 v11 shapeCasts_S1x35_S1x35) broadcasts_S1x35_S5000x35 (ix2 p f) = _
  rw [shapeCast_self, shapeCast_self, shapeCast_self, Column.broadcastTo_a1_ab_apply, broadcastTo_1b_ab_apply,
    broadcastTo_1b_ab_apply, broadcastTo_1b_ab_apply]

/-- The second body's stored column at row p. -/
theorem layer2_pay_at (v0 : FVec Ideal S5000x1 .f32) (v2 : FVec Ideal S1x1 .f32) (p : Fin 5000) :
    Gen.k1_pay1 (F := Ideal) v0 v2 (ix2 p 0) = Ideal.logistic (v0 (ix2 p 0) + v2 (ix2 0 0)) := by
  unfold Gen.k1_pay1
  show Ideal.logistic (shapeCast S5000x1 v0 shapeCasts_S5000x1_S5000x1 (ix2 p 0)
      + broadcastTo S5000x1 (shapeCast S1x1 v2 shapeCasts_S1x1_S1x1) broadcasts_S1x1_S5000x1 (ix2 p 0)) = _
  rw [shapeCast_self, shapeCast_self, broadcastTo_1b_ab_apply]

end Cert.KernelIdeal.Body

end
-- ==== Proof.KernelRegions.lean ====
/-
  What each of the two kernel launches leaves in its output array, as ONE function of the arrays it finds.

  Each launch walks 20 blocks of 5000 rows. Block t of an input or output array [100000, 1] is rows 5000·t … 5000·t + 4999; the
  parameter rows [1, 35] and [1, 1] are the same whole block at every point. What point t writes back is the body's stored column
  of its input blocks (KernelBody), and every row of block t reads only row 5000·t + p of the first input: so block t of the
  written array is block t of the whole-array function below. The 20 blocks tile the 100000 rows (row r is in block r / 5000),
  so the output array ends holding that function everywhere.
-/
import proofs.«107229_j75557064671746_2_alg».proof.Proof.Gen.KernelIdeal.Frame
import proofs.«107229_j75557064671746_2_alg».proof.Proof.KernelBody

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- Row i of the first launch's output: the hidden layer of the aggregated feature at that row. -/
def layer1Out (A : S100000x1.Idx → EReal) (w1 b1 w2 : S1x35.Idx → EReal) : S100000x1.Idx → EReal :=
  fun i => ∑ f : Fin 35, Ideal.logistic (A i * w1 (ix2 0 f) + b1 (ix2 0 f)) * w2 (ix2 0 f)

/-- The printed index maps over the grid: the row blocks move with the point, the parameter rows stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of layer1Out of the arrays the launch finds. -/
theorem flushed_eq0 (c : Dev nD) (t : Fin cfg0.N) :
    (dat0 V c).flushed 4 t = ((cfg0.win 4).blk t).view.read (Elt Ideal)
      (layer1Out (V c main_v42) (V c main_arg2) (V c main_v44) (V c main_v43)) := by
  show (cfg0.win 4).cut (grid0.coords t) ((dat0 V c).after 4 t) = _
  rw [after0_4]
  unfold out0_4
  rw [View.canon_unit_zero hz]
  simp only [View.ld_unit_zero (S := S5000x1) hz, View.ld_unit_zero (S := S1x35) hz]
  obtain ⟨e00, e01, e10, e11, e20, e21, e30, e31, e40, e41⟩ := idx_facts0 t
  funext j
  obtain ⟨p, q, rfl⟩ : ∃ (p : Fin 5000) (q : Fin 1), j = ix2 p q := ⟨j 0, j 1, eq_ix2 j⟩
  obtain rfl : q = 0 := Subsingleton.elim _ _
  show k0_pay1 (F := Ideal) (iblk0 V c 0 t) (iblk0 V c 1 t) (iblk0 V c 2 t) (iblk0 V c 3 t) (ix2 p 0)
    = layer1Out (V c main_v42) (V c main_arg2) (V c main_v44) (V c main_v43) (((cfg0.win 4).blk t).view.emb (ix2 p 0))
  refine (layer1_pay_at (iblk0 V c 0 t) (iblk0 V c 1 t) (iblk0 V c 2 t) (iblk0 V c 3 t) p).trans ?_
  unfold layer1Out
  refine Finset.sum_congr rfl fun f _ => ?_
  have h0 : iblk0 V c 0 t (ix2 p 0) = V c main_v42 (((cfg0.win 4).blk t).view.emb (ix2 p 0)) := by
    show V c main_v42 (((cfg0.win 0).blk t).view.emb (ix2 p 0)) = _
    refine congrArg (V c main_v42) (funext fun a => Fin.ext ?_)
    match a with
    | ⟨0, _⟩ =>
      show win0_0.index t (0 : Fin 2) * 5000 + 1 * p.val = win0_4.index t (0 : Fin 2) * 5000 + 1 * p.val
      omega
    | ⟨1, _⟩ =>
      show win0_0.index t (1 : Fin 2) * 1 + 1 * 0 = win0_4.index t (1 : Fin 2) * 1 + 1 * 0
      omega
  have h1 : iblk0 V c 1 t (ix2 0 f) = V c main_arg2 (ix2 0 f) := by
    show V c main_arg2 (((cfg0.win 1).blk t).view.emb (ix2 0 f)) = _
    refine congrArg (V c main_arg2) (funext fun a => Fin.ext ?_)
    match a with
    | ⟨0, _⟩ => show win0_1.index t (0 : Fin 2) * 1 + 1 * 0 = 0; omega
    | ⟨1, _⟩ => show win0_1.index t (1 : Fin 2) * 35 + 1 * f.val = f.val; omega
  have h2 : iblk0 V c 2 t (ix2 0 f) = V c main_v44 (ix2 0 f) := by
    show V c main_v44 (((cfg0.win 2).blk t).view.emb (ix2 0 f)) = _
    refine congrArg (V c main_v44) (funext fun a => Fin.ext ?_)
    match a with
    | ⟨0, _⟩ => show win0_2.index t (0 : Fin 2) * 1 + 1 * 0 = 0; omega
    | ⟨1, _⟩ => show win0_2.index t (1 : Fin 2) * 35 + 1 * f.val = f.val; omega
  have h3 : iblk0 V c 3 t (ix2 0 f) = V c main_v43 (ix2 0 f) := by
    show V c main_v43 (((cfg0.win 3).blk t).view.emb (ix2 0 f)) = _
    refine congrArg (V c main_v43) (funext fun a => Fin.ext ?_)
    match a with
    | ⟨0, _⟩ => show win0_3.index t (0 : Fin 2) * 1 + 1 * 0 = 0; omega
    | ⟨1, _⟩ => show win0_3.index t (1 : Fin 2) * 35 + 1 * f.val = f.val; omega
  rw [h0, h1, h2, h3]

/-- An index of the array is in point t's block iff each coordinate is in the block's range. -/
theorem mem_blk0 (t : Fin cfg0.N) (i : S100000x1.Idx) :
    i ∈ ((cfg0.win 4).blk t).view.set ↔ ∀ a : Fin 2, win0_4.index t a * S5000x1.size a ≤ (i a).val
      ∧ (i a).val < win0_4.index t a * S5000x1.size a + S5000x1.size a := by
  show i ∈ ((View.whole main_v45).slice (win0_4.rect t)).set ↔ _
  rw [View.set_slice_whole, Rect.mem_set_unit]
  exact Iff.rfl

/-- Every row is in the block of the point row / 5000. -/
theorem cover0 (i : S100000x1.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  have hlt : (i 0).val / 5000 < cfg0.N := by
    show (i 0).val / 5000 < grid0.N
    rw [N_0]; omega
  refine ⟨⟨(i 0).val / 5000, hlt⟩, flush0_4 _, ?_⟩
  rw [mem_blk0]
  obtain ⟨-, -, -, -, -, -, -, -, e40, e41⟩ := idx_facts0 ⟨(i 0).val / 5000, hlt⟩
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    rw [e40]; simp only; omega
  | ⟨1, _⟩ =>
    show win0_4.index ⟨(i 0).val / 5000, hlt⟩ (1 : Fin 2) * 1 ≤ (i 1).val
      ∧ (i 1).val < win0_4.index ⟨(i 0).val / 5000, hlt⟩ (1 : Fin 2) * 1 + 1
    rw [e41]; omega

/-- THE FIRST LAUNCH'S OUTPUT ARRAY after the launch. -/
theorem final0 (c : Dev nD) :
    (dat0 V c).arrAt 4 cfg0.N = layer1Out (V c main_v42) (V c main_arg2) (V c main_v44) (V c main_v43) :=
  (dat0 V c).arrAt_eq_of_cover 4 _ (fun t _ => flushed_eq0 V c t) cover0

/-! ## The second launch -/

/-- Row i of the second launch's output. -/
def layer2Out (Z : S100000x1.Idx → EReal) (b : S1x1.Idx → EReal) : S100000x1.Idx → EReal :=
  fun i => Ideal.logistic (Z i + b (ix2 0 0))

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed_eq1 (c : Dev nD) (t : Fin cfg1.N) :
    (dat1 V c).flushed 2 t = ((cfg1.win 2).blk t).view.read (Elt Ideal) (layer2Out (V c main_v58) (V c main_v59)) := by
  show (cfg1.win 2).cut (grid1.coords t) ((dat1 V c).after 2 t) = _
  rw [after1_2]
  unfold out1_2
  rw [View.canon_unit_zero hz]
  simp only [View.ld_unit_zero (S := S5000x1) hz, View.ld_unit_zero (S := S1x1) hz]
  obtain ⟨e00, e01, e10, e11, e20, e21⟩ := idx_facts1 t
  funext j
  obtain ⟨p, q, rfl⟩ : ∃ (p : Fin 5000) (q : Fin 1), j = ix2 p q := ⟨j 0, j 1, eq_ix2 j⟩
  obtain rfl : q = 0 := Subsingleton.elim _ _
  show k1_pay1 (F := Ideal) (iblk1 V c 0 t) (iblk1 V c 1 t) (ix2 p 0)
    = layer2Out (V c main_v58) (V c main_v59) (((cfg1.win 2).blk t).view.emb (ix2 p 0))
  refine (layer2_pay_at (iblk1 V c 0 t) (iblk1 V c 1 t) p).trans ?_
  unfold layer2Out
  have h0 : iblk1 V c 0 t (ix2 p 0) = V c main_v58 (((cfg1.win 2).blk t).view.emb (ix2 p 0)) := by
    show V c main_v58 (((cfg1.win 0).blk t).view.emb (ix2 p 0)) = _
    refine congrArg (V c main_v58) (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 1 + 1 * 0 = win1_2.index t (1 : Fin 2) * 1 + 1 * 0
      omega
  have h1 : iblk1 V c 1 t (ix2 0 0) = V c main_v59 (ix2 0 0) := by
    show V c main_v59 (((cfg1.win 1).blk t).view.emb (ix2 0 0)) = _
    refine congrArg (V c main_v59) (funext fun a => Fin.ext ?_)
    match a with
    | ⟨0, _⟩ => show win1_1.index t (0 : Fin 2) * 1 + 1 * 0 = 0; omega
    | ⟨1, _⟩ => show win1_1.index t (1 : Fin 2) * 1 + 1 * 0 = 0; omega
  rw [h0, h1]

theorem mem_blk1 (t : Fin cfg1.N) (i : S100000x1.Idx) :
    i ∈ ((cfg1.win 2).blk t).view.set ↔ ∀ a : Fin 2, win1_2.index t a * S5000x1.size a ≤ (i a).val
      ∧ (i a).val < win1_2.index t a * S5000x1.size a + S5000x1.size a := by
  show i ∈ ((View.whole main_v60).slice (win1_2.rect t)).set ↔ _
  rw [View.set_slice_whole, Rect.mem_set_unit]
  exact Iff.rfl

theorem cover1 (i : S100000x1.Idx) :
    ∃ t : Fin cfg1.N, (cfg1.win 2).flush t = true ∧ i ∈ ((cfg1.win 2).blk t).view.set := by
  have hi0 : (i 0).val < 100000 := (i 0).isLt
  have hi1 : (i 1).val < 1 := (i 1).isLt
  have hlt : (i 0).val / 5000 < cfg1.N := by
    show (i 0).val / 5000 < grid1.N
    rw [N_1]; omega
  refine ⟨⟨(i 0).val / 5000, hlt⟩, flush1_2 _, ?_⟩
  rw [mem_blk1]
  obtain ⟨-, -, -, -, e20, e21⟩ := idx_facts1 ⟨(i 0).val / 5000, hlt⟩
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e20]; simp only; omega
  | ⟨1, _⟩ =>
    show win1_2.index ⟨(i 0).val / 5000, hlt⟩ (1 : Fin 2) * 1 ≤ (i 1).val
      ∧ (i 1).val < win1_2.index ⟨(i 0).val / 5000, hlt⟩ (1 : Fin 2) * 1 + 1
    rw [e21]; omega

/-- THE SECOND LAUNCH'S OUTPUT ARRAY after the launch. -/
theorem final1 (c : Dev nD) : (dat1 V c).arrAt 2 cfg1.N = layer2Out (V c main_v58) (V c main_v59) :=
  (dat1 V c).arrAt_eq_of_cover 2 _ (fun t _ => flushed_eq1 V c t) cover1

end Cert.KernelIdeal.Regions

end
-- ==== Proof.LibLifts.lean ====
/-
  Lifting a vector to a matrix with one unit axis, and back, read at coordinates (any extents):
  * a vector [a] lifted by broadcast_in_dim along axis 0 to the column [a, 1] reads, at (n, u), the vector at n;
  * a column [a, 1] reshaped to the vector [a] reads, at n, the column at (n, 0);
  * a vector [b] lifted by broadcast_in_dim along axis 1 to the row [1, b] reads, at (u, f), the vector at f.
-/
import Idealize.ShloMosaic.Lib.Pipeline.Value
import Idealize.ShloMosaic.Lib.ValueIdx

namespace Idealize.ShloMosaic.Lifts

open Idealize.ShloMosaic Idealize.ShloMosaic.ValueIdx

variable {α : Type}

/-- A vector lifted to a column. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (n : Fin a) (u : Fin 1) :
    broadcastInDim ⟨2, ![a, 1]⟩ ![0] h x (ix2 n u) = x (ix1 n) := by
  refine broadcastInDim_apply _ h x (ix2 n u) (ix1 n) fun ax => ?_
  match ax with
  | ⟨0, _⟩ =>
    show n.val = if a = 1 then 0 else n.val
    split
    · have := n.isLt; omega
    · rfl

/-- A column reshaped to a vector. -/
theorem shapeCast_a1_a_apply {a : ℕ} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-- A vector lifted to a row. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (f : Fin b) :
    broadcastInDim ⟨2, ![1, b]⟩ ![1] h x (ix2 u f) = x (ix1 f) := by
  refine broadcastInDim_apply _ h x (ix2 u f) (ix1 f) fun ax => ?_
  match ax with
  | ⟨0, _⟩ =>
    show f.val = if b = 1 then 0 else f.val
    split
    · have := f.isLt; omega
    · rfl

end Idealize.ShloMosaic.Lifts
-- ==== Proof.KernelHost.lean ====
/-
  The host operations around the two kernel launches, as terms of what they find.

  Both aggregations the kernel's host code makes have one shape: a column of node values is gathered along the edges,
  scaled by the edge weight, scatter-added per destination from zero, and kept as a column [100000, 1] (aggCol). Read at
  row n it is the edge sum Σ_e [lands e n] col(row e) · ν e over the graph of Graph: the index arrays and the weights are the
  same terms of the edge list as the reference's.

  Before the first launch the host also lays the second-layer weights out as a row (a transpose) and lifts the first bias
  to a row; before the second launch it lifts the second bias to a [1, 1] array. The arguments themselves are not written.
-/
import proofs.«107229_j75557064671746_2_alg».proof.Proof.Gen.KernelIdeal.Frame
import proofs.«107229_j75557064671746_2_alg».proof.Proof.Graph
import proofs.«107229_j75557064671746_2_alg».proof.Proof.LibLifts

set_option maxRecDepth 16384

noncomputable section

namespace Cert.KernelIdeal.HostSide

open Idealize.ShloMosaic Idealize.ShloMosaic.TcCoe Idealize.ShloMosaic.ValueIdx Idealize.ShloMosaic.LeadingAxis
open Idealize.SL.Sem Idealize.ShloMosaic.StableHlo
open Cert.KernelIdeal Cert.KernelIdeal.Gen Cert.EdgeLayers Cert.Graph

/-- A node index counted from the end when negative: s ↦ (if s < 0 then s + 100000 else s), entry by entry. -/
def wrapNeg (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The edge weights from the normalising factors and the two index vectors. -/
def normOf (dinv : FVec Ideal S100000 .f32) (src dst : IVec S1700000 32) : FVec Ideal S1700000 .f32 :=
  mulf (F := Ideal) (Host.gather gather_S100000_S1700000x1_S1700000_n_0_n_n_0_1_1 dinv
      (broadcastInDim S1700000x1 ![0] bcast_S1700000_S1700000x1_0 (wrapNeg src)))
    (Host.gather gather_S100000_S1700000x1_S1700000_n_0_n_n_0_1_1 dinv
      (broadcastInDim S1700000x1 ![0] bcast_S1700000_S1700000x1_0 (wrapNeg dst)))

/-- A column of node values aggregated along the edges, kept as a column. -/
def aggCol (col : FVec Ideal S100000 .f32) (src dst : IVec S1700000 32) (nrm : FVec Ideal S1700000 .f32) :
    FVec Ideal S100000x1 .f32 :=
  broadcastInDim S100000x1 ![0] bcast_S100000_S100000x1_0
    (Host.scatterAdd scatter_S100000_S1700000x1_S1700000_n_0_0_1
      (broadcastInDim S100000 ![] bcast_S_S100000 (constant (F := Ideal) S_ .f32 0x00000000#32))
      (broadcastInDim S1700000x1 ![0] bcast_S1700000_S1700000x1_0 dst)
      (mulf (F := Ideal) (Host.gather gather_S100000_S1700000x1_S1700000_n_0_n_n_0_1_1 col
          (broadcastInDim S1700000x1 ![0] bcast_S1700000_S1700000x1_0 (wrapNeg src)))
        nrm))

/-- Over the edge list's own vectors these are the reference's terms. -/
theorem normOf_edges (x1 : EdgeList) :
    normOf (Cert.ReferenceIdeal.ReadP.val_main_v14 (F := Ideal) x1) (Cert.ReferenceIdeal.ReadP.val_main_v3 (F := Ideal) x1)
        (Cert.ReferenceIdeal.ReadP.val_main_v6 (F := Ideal) x1)
      = Cert.ReferenceIdeal.ReadP.val_main_v29 (F := Ideal) x1 := rfl

/-- aggCol over the edge list's own index arrays and weights, read at row n. -/
theorem aggCol_at (col : FVec Ideal S100000 .f32) (x1 : EdgeList) (n : Fin 100000) :
    aggCol col (Cert.ReferenceIdeal.ReadP.val_main_v3 (F := Ideal) x1) (Cert.ReferenceIdeal.ReadP.val_main_v6 (F := Ideal) x1)
        (Cert.ReferenceIdeal.ReadP.val_main_v29 (F := Ideal) x1) (ix2 n 0)
      = edgeSum (lands x1) (fun e => col (ix1 (row x1 e)) * nu x1 e) n := by
  unfold aggCol
  rw [Lifts.broadcastInDim_a_a1_apply]
  have hd : scatter_S100000_S1700000x1_S1700000_n_0_0_1
      = vecScatterDims 100000 1700000 scatter_S100000_S1700000x1_S1700000_n_0_0_1_wf := rfl
  have hg : gather_S100000_S1700000x1_S1700000_n_0_n_n_0_1_1
      = vecGatherDims 100000 1700000 gather_S100000_S1700000x1_S1700000_n_0_n_n_0_1_1_wf := rfl
  have hdst : broadcastInDim S1700000x1 ![0] bcast_S1700000_S1700000x1_0 (Cert.ReferenceIdeal.ReadP.val_main_v6 (F := Ideal) x1)
      = Cert.ReferenceIdeal.ReadP.val_main_v9 (F := Ideal) x1 := rfl
  have hsrc : broadcastInDim S1700000x1 ![0] bcast_S1700000_S1700000x1_0
      (wrapNeg (Cert.ReferenceIdeal.ReadP.val_main_v3 (F := Ideal) x1))
      = Cert.ReferenceIdeal.ReadP.val_main_v20 (F := Ideal) x1 := rfl
  rw [hdst, hsrc, hd, scatterAdd_vec_apply]
  show Ideal.ofBits .f32 0x00000000#32 + _ = _
  rw [Ideal.ofBits_zero_f32, zero_add]
  unfold edgeSum
  refine Finset.sum_congr rfl fun e _ => ?_
  show (if (Cert.ReferenceIdeal.ReadP.val_main_v9 (F := Ideal) x1 (ix2 e 0)).toInt = (n.val : Int) then
      Host.gather gather_S100000_S1700000x1_S1700000_n_0_n_n_0_1_1 col (Cert.ReferenceIdeal.ReadP.val_main_v20 (F := Ideal) x1) (ix1 e)
        * Cert.ReferenceIdeal.ReadP.val_main_v29 (F := Ideal) x1 (ix1 e) else 0) = _
  rw [hg, gather_vec_apply (by decide : 0 < 100000)]
  rfl

variable (m : (ℓ : Loc nD τ sig) → Buf (Elt Ideal) ℓ) (ρ : Dev nD → PrngReg)

/-- The edge list as launched. -/
abbrev edges (c : Dev nD) : EdgeList := m ((c : Thread nD τ).loc main_arg1)

/-! ## After the first stretch (the edge vectors, the degrees, the compare and the rsqrt) -/

theorem s1_v3 (c : Dev nD) :
    W1 m ρ c (Proc.devRef .tc main_v3) = Cert.ReferenceIdeal.ReadP.val_main_v3 (F := Ideal) (edges m c) := by
  dsimp only [W1, hostOps0]; after_results_simp <;> rfl
theorem s1_v6 (c : Dev nD) :
    W1 m ρ c (Proc.devRef .tc main_v6) = Cert.ReferenceIdeal.ReadP.val_main_v6 (F := Ideal) (edges m c) := by
  dsimp only [W1, hostOps0]; after_results_simp <;> rfl
theorem s1_v12 (c : Dev nD) :
    W1 m ρ c (Proc.devRef .tc main_v12) = Cert.ReferenceIdeal.ReadP.val_main_v12 (F := Ideal) (edges m c) := by
  dsimp only [W1, hostOps0]; after_results_simp <;> rfl
theorem s1_v13 (c : Dev nD) :
    W1 m ρ c (Proc.devRef .tc main_v13) = Cert.ReferenceIdeal.ReadP.val_main_v13 (F := Ideal) (edges m c) := by
  dsimp only [W1, hostOps0]; after_results_simp <;> rfl
theorem s1_cst2 (c : Dev nD) :
    W1 m ρ c (Proc.devRef .tc main_cst_2) = Cert.ReferenceIdeal.ReadP.val_main_cst_2 (F := Ideal) := by
  dsimp only [W1, hostOps0]; after_results_simp <;> rfl
theorem s1_arg0 (c : Dev nD) : W1 m ρ c (Proc.devRef .tc main_arg0) = m ((c : Thread nD τ).loc main_arg0) := by
  dsimp only [W1, hostOps0]; after_results_simp <;> rfl
theorem s1_arg2 (c : Dev nD) : W1 m ρ c (Proc.devRef .tc main_arg2) = m ((c : Thread nD τ).loc main_arg2) := by
  dsimp only [W1, hostOps0]; after_results_simp <;> rfl
theorem s1_arg3 (c : Dev nD) : W1 m ρ c (Proc.devRef .tc main_arg3) = m ((c : Thread nD τ).loc main_arg3) := by
  dsimp only [W1, hostOps0]; after_results_simp <;> rfl
theorem s1_arg4 (c : Dev nD) : W1 m ρ c (Proc.devRef .tc main_arg4) = m ((c : Thread nD τ).loc main_arg4) := by
  dsimp only [W1, hostOps0]; after_results_simp <;> rfl
theorem s1_arg5 (c : Dev nD) : W1 m ρ c (Proc.devRef .tc main_arg5) = m ((c : Thread nD τ).loc main_arg5) := by
  dsimp only [W1, hostOps0]; after_results_simp <;> rfl

/-! ## After the second stretch (the select that makes the normalising factor) -/

/-! The second stretch writes the call's three buffers and no other. -/
theorem stretch2_v3 (V : Valuation τ sig (Elt Ideal)) :
    StableHlo.after hostOps0_1 V (Proc.devRef .tc main_v3) = V (Proc.devRef .tc main_v3) := by
  dsimp only [hostOps0_1]; after_results_simp <;> rfl
theorem stretch2_v6 (V : Valuation τ sig (Elt Ideal)) :
    StableHlo.after hostOps0_1 V (Proc.devRef .tc main_v6) = V (Proc.devRef .tc main_v6) := by
  dsimp only [hostOps0_1]; after_results_simp <;> rfl
theorem stretch2_arg0 (V : Valuation τ sig (Elt Ideal)) :
    StableHlo.after hostOps0_1 V (Proc.devRef .tc main_arg0) = V (Proc.devRef .tc main_arg0) := by
  dsimp only [hostOps0_1]; after_results_simp <;> rfl
theorem stretch2_arg2 (V : Valuation τ sig (Elt Ideal)) :
    StableHlo.after hostOps0_1 V (Proc.devRef .tc main_arg2) = V (Proc.devRef .tc main_arg2) := by
  dsimp only [hostOps0_1]; after_results_simp <;> rfl
theorem stretch2_arg3 (V : Valuation τ sig (Elt Ideal)) :
    StableHlo.after hostOps0_1 V (Proc.devRef .tc main_arg3) = V (Proc.devRef .tc main_arg3) := by
  dsimp only [hostOps0_1]; after_results_simp <;> rfl
theorem stretch2_arg4 (V : Valuation τ sig (Elt Ideal)) :
    StableHlo.after hostOps0_1 V (Proc.devRef .tc main_arg4) = V (Proc.devRef .tc main_arg4) := by
  dsimp only [hostOps0_1]; after_results_simp <;> rfl
theorem stretch2_arg5 (V : Valuation τ sig (Elt Ideal)) :
    StableHlo.after hostOps0_1 V (Proc.devRef .tc main_arg5) = V (Proc.devRef .tc main_arg5) := by
  dsimp only [hostOps0_1]; after_results_simp <;> rfl

theorem stretch2_v14 (V : Valuation τ sig (Elt Ideal)) :
    StableHlo.after hostOps0_1 V (Proc.devRef .tc main_v14)
      = select (V (Proc.devRef .tc main_v12) : (⟨S100000, .i1⟩ : BufTy).Contents (Elt Ideal))
          (V (Proc.devRef .tc main_v13) : (⟨S100000, .f32⟩ : BufTy).Contents (Elt Ideal))
          (broadcastInDim S100000 ![] bcast_S_S100000
            (id (V (Proc.devRef .tc main_cst_2) : (⟨S_, .f32⟩ : BufTy).Contents (Elt Ideal)))) := by
  dsimp only [hostOps0_1]
  after_results_simp <;> rfl

theorem s2_v14 (c : Dev nD) :
    W2 m ρ c (Proc.devRef .tc main_v14) = Cert.ReferenceIdeal.ReadP.val_main_v14 (F := Ideal) (edges m c) := by
  show StableHlo.after hostOps0_1 (W1 m ρ c) (Proc.devRef .tc main_v14) = _
  rw [stretch2_v14, s1_v12, s1_v13, s1_cst2]
  rfl
theorem s2_v3 (c : Dev nD) :
    W2 m ρ c (Proc.devRef .tc main_v3) = Cert.ReferenceIdeal.ReadP.val_main_v3 (F := Ideal) (edges m c) :=
  (stretch2_v3 (W1 m ρ c)).trans (s1_v3 m ρ c)
theorem s2_v6 (c : Dev nD) :
    W2 m ρ c (Proc.devRef .tc main_v6) = Cert.ReferenceIdeal.ReadP.val_main_v6 (F := Ideal) (edges m c) :=
  (stretch2_v6 (W1 m ρ c)).trans (s1_v6 m ρ c)
theorem s2_arg0 (c : Dev nD) : W2 m ρ c (Proc.devRef .tc main_arg0) = m ((c : Thread nD τ).loc main_arg0) :=
  (stretch2_arg0 (W1 m ρ c)).trans (s1_arg0 m ρ c)
theorem s2_arg2 (c : Dev nD) : W2 m ρ c (Proc.devRef .tc main_arg2) = m ((c : Thread nD τ).loc main_arg2) :=
  (stretch2_arg2 (W1 m ρ c)).trans (s1_arg2 m ρ c)
theorem s2_arg3 (c : Dev nD) : W2 m ρ c (Proc.devRef .tc main_arg3) = m ((c : Thread nD τ).loc main_arg3) :=
  (stretch2_arg3 (W1 m ρ c)).trans (s1_arg3 m ρ c)
theorem s2_arg4 (c : Dev nD) : W2 m ρ c (Proc.devRef .tc main_arg4) = m ((c : Thread nD τ).loc main_arg4) :=
  (stretch2_arg4 (W1 m ρ c)).trans (s1_arg4 m ρ c)
theorem s2_arg5 (c : Dev nD) : W2 m ρ c (Proc.devRef .tc main_arg5) = m ((c : Thread nD τ).loc main_arg5) :=
  (stretch2_arg5 (W1 m ρ c)).trans (s1_arg5 m ρ c)

/-! ## After the third stretch: what the first launch finds -/

theorem stretch3_v3 (V : Valuation τ sig (Elt Ideal)) :
    StableHlo.after hostOps0_2 V (Proc.devRef .tc main_v3) = V (Proc.devRef .tc main_v3) := by
  dsimp only [hostOps0_2]; after_results_simp <;> rfl
theorem stretch3_v6 (V : Valuation τ sig (Elt Ideal)) :
    StableHlo.after hostOps0_2 V (Proc.devRef .tc main_v6) = V (Proc.devRef .tc main_v6) := by
  dsimp only [hostOps0_2]; after_results_simp <;> rfl
theorem stretch3_arg2 (V : Valuation τ sig (Elt Ideal)) :
    StableHlo.after hostOps0_2 V (Proc.devRef .tc main_arg2) = V (Proc.devRef .tc main_arg2) := by
  dsimp only [hostOps0_2]; after_results_simp <;> rfl
theorem stretch3_arg5 (V : Valuation τ sig (Elt Ideal)) :
    StableHlo.after hostOps0_2 V (Proc.devRef .tc main_arg5) = V (Proc.devRef .tc main_arg5) := by
  dsimp only [hostOps0_2]; after_results_simp <;> rfl
theorem stretch3_v29 (V : Valuation τ sig (Elt Ideal)) :
    StableHlo.after hostOps0_2 V (Proc.devRef .tc main_v29)
      = normOf (V (Proc.devRef .tc main_v14)) (V (Proc.devRef .tc main_v3)) (V (Proc.devRef .tc main_v6)) := by
  dsimp only [hostOps0_2]; after_results_simp <;> rfl
theorem stretch3_v42 (V : Valuation τ sig (Elt Ideal)) :
    StableHlo.after hostOps0_2 V (Proc.devRef .tc main_v42)
      = aggCol (shapeCast S100000 (V (Proc.devRef .tc main_arg0) : (⟨S100000x1, .f32⟩ : BufTy).Contents (Elt Ideal))
            shapeCasts_S100000x1_S100000)
          (V (Proc.devRef .tc main_v3)) (V (Proc.devRef .tc main_v6))
          (normOf (V (Proc.devRef .tc main_v14)) (V (Proc.devRef .tc main_v3)) (V (Proc.devRef .tc main_v6))) := by
  dsimp only [hostOps0_2]; after_results_simp <;> rfl
theorem stretch3_v43 (V : Valuation τ sig (Elt Ideal)) :
    StableHlo.after hostOps0_2 V (Proc.devRef .tc main_v43)
      = transpose S1x35 [1, 0] (V (Proc.devRef .tc main_arg4) : (⟨S35x1, .f32⟩ : BufTy).Contents (Elt Ideal))
          transposes_S35x1_S1x35_1_0 := by
  dsimp only [hostOps0_2]; after_results_simp <;> rfl
theorem stretch3_v44 (V : Valuation τ sig (Elt Ideal)) :
    StableHlo.after hostOps0_2 V (Proc.devRef .tc main_v44)
      = broadcastInDim S1x35 ![1] bcast_S35_S1x35_1
          (V (Proc.devRef .tc main_arg3) : (⟨S35, .f32⟩ : BufTy).Contents (Elt Ideal)) := by
  dsimp only [hostOps0_2]; after_results_simp <;> rfl

theorem v3_at_entry (c : Dev nD) :
    W3 m ρ c (Proc.devRef .tc main_v3) = Cert.ReferenceIdeal.ReadP.val_main_v3 (F := Ideal) (edges m c) :=
  (stretch3_v3 (W2 m ρ c)).trans (s2_v3 m ρ c)
theorem v6_at_entry (c : Dev nD) :
    W3 m ρ c (Proc.devRef .tc main_v6) = Cert.ReferenceIdeal.ReadP.val_main_v6 (F := Ideal) (edges m c) :=
  (stretch3_v6 (W2 m ρ c)).trans (s2_v6 m ρ c)
theorem v29_at_entry (c : Dev nD) :
    W3 m ρ c (Proc.devRef .tc main_v29) = Cert.ReferenceIdeal.ReadP.val_main_v29 (F := Ideal) (edges m c) := by
  show StableHlo.after hostOps0_2 (W2 m ρ c) (Proc.devRef .tc main_v29) = _
  rw [stretch3_v29, s2_v14, s2_v3, s2_v6, normOf_edges]
theorem v42_at_entry (c : Dev nD) :
    W3 m ρ c (Proc.devRef .tc main_v42)
      = aggCol (shapeCast S100000 (m ((c : Thread nD τ).loc main_arg0)) shapeCasts_S100000x1_S100000)
          (Cert.ReferenceIdeal.ReadP.val_main_v3 (F := Ideal) (edges m c)) (Cert.ReferenceIdeal.ReadP.val_main_v6 (F := Ideal) (edges m c))
          (Cert.ReferenceIdeal.ReadP.val_main_v29 (F := Ideal) (edges m c)) := by
  show StableHlo.after hostOps0_2 (W2 m ρ c) (Proc.devRef .tc main_v42) = _
  rw [stretch3_v42, s2_v14, s2_v3, s2_v6, s2_arg0, normOf_edges]
theorem v43_at_entry (c : Dev nD) :
    W3 m ρ c (Proc.devRef .tc main_v43)
      = transpose S1x35 [1, 0] (m ((c : Thread nD τ).loc main_arg4)) transposes_S35x1_S1x35_1_0 := by
  show StableHlo.after hostOps0_2 (W2 m ρ c) (Proc.devRef .tc main_v43) = _
  rw [stretch3_v43, s2_arg4]
theorem v44_at_entry (c : Dev nD) :
    W3 m ρ c (Proc.devRef .tc main_v44)
      = broadcastInDim S1x35 ![1] bcast_S35_S1x35_1 (m ((c : Thread nD τ).loc main_arg3)) := by
  show StableHlo.after hostOps0_2 (W2 m ρ c) (Proc.devRef .tc main_v44) = _
  rw [stretch3_v44, s2_arg3]
theorem arg2_at_entry (c : Dev nD) : W3 m ρ c (Proc.devRef .tc main_arg2) = m ((c : Thread nD τ).loc main_arg2) :=
  (stretch3_arg2 (W2 m ρ c)).trans (s2_arg2 m ρ c)
theorem arg5_at_entry (c : Dev nD) : W3 m ρ c (Proc.devRef .tc main_arg5) = m ((c : Thread nD τ).loc main_arg5) :=
  (stretch3_arg5 (W2 m ρ c)).trans (s2_arg5 m ρ c)

/-! ## What the second launch finds, from what the first one left -/

theorem v58_at_entry (c : Dev nD) :
    W5 m ρ c (Proc.devRef .tc main_v58)
      = aggCol (shapeCast S100000 (W4 m ρ c (Proc.devRef .tc main_v45) : (⟨S100000x1, .f32⟩ : BufTy).Contents (Elt Ideal))
            shapeCasts_S100000x1_S100000)
          (W4 m ρ c (Proc.devRef .tc main_v3)) (W4 m ρ c (Proc.devRef .tc main_v6)) (W4 m ρ c (Proc.devRef .tc main_v29)) := by
  show StableHlo.after hostOps1 (W4 m ρ c) (Proc.devRef .tc main_v58) = _
  generalize W4 m ρ c = V
  dsimp only [hostOps1]; after_results_simp <;> rfl

theorem v59_at_entry (c : Dev nD) :
    W5 m ρ c (Proc.devRef .tc main_v59)
      = broadcastInDim S1x1 ![1] bcast_S1_S1x1_1
          (W4 m ρ c (Proc.devRef .tc main_arg5) : (⟨S1, .f32⟩ : BufTy).Contents (Elt Ideal)) := by
  show StableHlo.after hostOps1 (W4 m ρ c) (Proc.devRef .tc main_v59) = _
  generalize W4 m ρ c = V
  dsimp only [hostOps1]; after_results_simp <;> rfl

end Cert.KernelIdeal.HostSide

end
-- ==== Proof.KernelValue.lean ====
/-
  The kernel program's result, read at node n, is the two-layer function of EdgeLayers over the graph of Graph.

  Reading backwards from the result buffer: the second launch leaves σ(z(n) + b2) (KernelRegions), where z is the column the
  host aggregated along the edges from the first launch's output (KernelHost: an edge sum of that output at the row each edge
  reads, times the edge weight); the first launch's output at row k is the hidden layer of the column the host aggregated
  from the features, with the first-layer weights, the bias lifted to a row and the second-layer weights laid out as a row
  (a transpose). Nothing here needs finiteness: the kernel's arrangement IS EdgeLayers.twoLayer.

  Each buffer a launch finds or leaves gets a name at its array type; the whole-array equations are stated over those
  names, and every step at an index is a rewrite by one of them.
-/
import proofs.«107229_j75557064671746_2_alg».proof.Proof.KernelRegions
import proofs.«107229_j75557064671746_2_alg».proof.Proof.KernelHost
import Idealize.ShloMosaic.Lib.ValueLayout

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Regions Cert.KernelIdeal.HostSide Cert.Graph

variable (m : (ℓ : Loc nD τ sig) → Buf (Elt Ideal) ℓ) (ρ : Dev nD → PrngReg)

/-- The five float arguments as launched, at their array types. -/
abbrev feat (c : Dev nD) : FVec Ideal S100000x1 .f32 := m ((c : Thread nD τ).loc main_arg0)
abbrev wt1 (c : Dev nD) : FVec Ideal S1x35 .f32 := m ((c : Thread nD τ).loc main_arg2)
abbrev bs1 (c : Dev nD) : FVec Ideal S35 .f32 := m ((c : Thread nD τ).loc main_arg3)
abbrev wt2 (c : Dev nD) : FVec Ideal S35x1 .f32 := m ((c : Thread nD τ).loc main_arg4)
abbrev bs2 (c : Dev nD) : FVec Ideal S1 .f32 := m ((c : Thread nD τ).loc main_arg5)

/-- The hidden layer over the launched arguments. -/
def hid (c : Dev nD) (k : Fin 100000) : EReal :=
  Cert.EdgeLayers.hidden (lands (edges m c)) (row (edges m c)) (nu (edges m c)) (fun j => feat m c (ix2 j 0))
    (fun f => wt1 m c (ix2 0 f)) (fun f => bs1 m c (ix1 f)) (fun f => wt2 m c (ix2 f 0)) k

/-! ## The buffers the launches find and leave, named -/

/-- What the first launch finds: the aggregated features, the first-layer weights, the bias row, the second-layer row. -/
def aggIn (c : Dev nD) : FVec Ideal S100000x1 .f32 := W3 m ρ c (Proc.devRef .tc main_v42)
def w1In (c : Dev nD) : FVec Ideal S1x35 .f32 := W3 m ρ c (Proc.devRef .tc main_arg2)
def b1In (c : Dev nD) : FVec Ideal S1x35 .f32 := W3 m ρ c (Proc.devRef .tc main_v44)
def w2In (c : Dev nD) : FVec Ideal S1x35 .f32 := W3 m ρ c (Proc.devRef .tc main_v43)
/-- What the first launch leaves. -/
def out1 (c : Dev nD) : FVec Ideal S100000x1 .f32 := W4 m ρ c (Proc.devRef .tc main_v45)
/-- What the second launch finds: the aggregated hidden layer and the second bias. -/
def zIn (c : Dev nD) : FVec Ideal S100000x1 .f32 := W5 m ρ c (Proc.devRef .tc main_v58)
def b2In (c : Dev nD) : FVec Ideal S1x1 .f32 := W5 m ρ c (Proc.devRef .tc main_v59)
/-- The result buffer after the run. -/
def res (c : Dev nD) : FVec Ideal S100000x1 .f32 := W6 m ρ c (Proc.devRef .tc main_v60)

theorem res_def (c : Dev nD) : res m ρ c = W6 m ρ c (Proc.devRef .tc main_v60) := rfl

theorem aggIn_eq (c : Dev nD) :
    aggIn m ρ c = aggCol (shapeCast S100000 (feat m c) Gen.shapeCasts_S100000x1_S100000)
      (Cert.ReferenceIdeal.ReadP.val_main_v3 (F := Ideal) (edges m c)) (Cert.ReferenceIdeal.ReadP.val_main_v6 (F := Ideal) (edges m c))
      (Cert.ReferenceIdeal.ReadP.val_main_v29 (F := Ideal) (edges m c)) := by
  unfold aggIn; exact v42_at_entry m ρ c
theorem w1In_eq (c : Dev nD) : w1In m ρ c = wt1 m c := by
  unfold w1In; exact arg2_at_entry m ρ c
theorem b1In_eq (c : Dev nD) : b1In m ρ c = broadcastInDim S1x35 ![1] Gen.bcast_S35_S1x35_1 (bs1 m c) := by
  unfold b1In; exact v44_at_entry m ρ c
theorem w2In_eq (c : Dev nD) : w2In m ρ c = transpose S1x35 [1, 0] (wt2 m c) Gen.transposes_S35x1_S1x35_1_0 := by
  unfold w2In; exact v43_at_entry m ρ c
theorem out1_eq (c : Dev nD) : out1 m ρ c = layer1Out (aggIn m ρ c) (w1In m ρ c) (b1In m ρ c) (w2In m ρ c) := by
  unfold out1 aggIn w1In b1In w2In
  exact (W4_arr m ρ c 4).trans (final0 (V3 m ρ) c)
theorem zIn_eq (c : Dev nD) :
    zIn m ρ c = aggCol (shapeCast S100000 (out1 m ρ c) Gen.shapeCasts_S100000x1_S100000)
      (Cert.ReferenceIdeal.ReadP.val_main_v3 (F := Ideal) (edges m c)) (Cert.ReferenceIdeal.ReadP.val_main_v6 (F := Ideal) (edges m c))
      (Cert.ReferenceIdeal.ReadP.val_main_v29 (F := Ideal) (edges m c)) := by
  unfold zIn out1
  rw [v58_at_entry, W4_of_ne m ρ c main_v3 (by decide), W4_of_ne m ρ c main_v6 (by decide),
    W4_of_ne m ρ c main_v29 (by decide), v3_at_entry, v6_at_entry, v29_at_entry]
theorem b2In_eq (c : Dev nD) : b2In m ρ c = broadcastInDim S1x1 ![1] Gen.bcast_S1_S1x1_1 (bs2 m c) := by
  unfold b2In
  rw [v59_at_entry, W4_of_ne m ρ c main_arg5 (by decide), arg5_at_entry]
theorem res_eq (c : Dev nD) : res m ρ c = layer2Out (zIn m ρ c) (b2In m ρ c) := by
  unfold res zIn b2In
  exact (W6_arr m ρ c 2).trans (final1 (V5 m ρ) c)

/-! ## At an index -/

/-- The aggregated feature the first launch finds at row k. -/
theorem agg1_at (c : Dev nD) (k : Fin 100000) :
    aggIn m ρ c (ix2 k 0)
      = Cert.EdgeLayers.edgeSum (lands (edges m c)) (fun e => feat m c (ix2 (row (edges m c) e) 0) * nu (edges m c) e) k := by
  rw [aggIn_eq, aggCol_at]
  refine congrArg (fun a => Cert.EdgeLayers.edgeSum (lands (edges m c)) a k) (funext fun e => ?_)
  rw [Lifts.shapeCast_a1_a_apply]

/-- What the first launch leaves at row k: the hidden layer. -/
theorem hidden_at (c : Dev nD) (k : Fin 100000) : out1 m ρ c (ix2 k 0) = hid m c k := by
  rw [out1_eq]
  simp only [layer1Out, hid, Cert.EdgeLayers.hidden]
  refine Finset.sum_congr rfl fun f _ => ?_
  rw [agg1_at, w1In_eq, b1In_eq, w2In_eq, Lifts.broadcastInDim_b_1b_apply, transpose_ix2_apply]

theorem zIn_at (c : Dev nD) (n : Fin 100000) :
    zIn m ρ c (ix2 n 0)
      = Cert.EdgeLayers.edgeSum (lands (edges m c)) (fun e => hid m c (row (edges m c) e) * nu (edges m c) e) n := by
  rw [zIn_eq, aggCol_at]
  refine congrArg (fun a => Cert.EdgeLayers.edgeSum (lands (edges m c)) a n) (funext fun e => ?_)
  rw [Lifts.shapeCast_a1_a_apply, hidden_at]

theorem b2In_at (c : Dev nD) : b2In m ρ c (ix2 0 0) = bs2 m c (ix1 0) := by
  rw [b2In_eq, Lifts.broadcastInDim_b_1b_apply]

/-- THE KERNEL PROGRAM'S RESULT at node n. -/
theorem result_at (c : Dev nD) (n : Fin 100000) :
    res m ρ c (ix2 n 0)
      = Cert.EdgeLayers.twoLayer (lands (edges m c)) (row (edges m c)) (nu (edges m c)) (fun j => feat m c (ix2 j 0))
          (fun f => wt1 m c (ix2 0 f)) (fun f => bs1 m c (ix1 f)) (fun f => wt2 m c (ix2 f 0)) (bs2 m c (ix1 0)) n := by
  rw [res_eq]
  simp only [layer2Out, Cert.EdgeLayers.twoLayer]
  rw [zIn_at, b2In_at]
  rfl

end Cert.KernelIdeal.Result

end
-- ==== Proof.KernelRun.lean ====
/-
  The kernel program's run with its result named: every weakly fair execution of the two launches among the host
  operations terminates, nothing faulting, with the result buffer at what the second launch leaves (the last boundary's
  contents, W6 at the result buffer) and the arguments as launched. This is the program's frame run with one more buffer
  read off the final thread state.
-/
import proofs.«107229_j75557064671746_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.Finite.lean ====
/-
  The precondition "every float input is finite", opened for the two arrays whose finiteness the proof uses: the node
  features and the first-layer weights. The printed test is a conjunction of five "all entries pass" results; a conjunction
  that is 1 has both conjuncts 1, an "all" that is 1 has every entry 1, and an entry whose absolute value compares below the
  word of +∞ is the image of a real number.
-/
import proofs.«107229_j75557064671746_2_alg».proof.Pre_finite_inputs
import proofs.«107229_j75557064671746_2_alg».proof.Proof.Gen.Pre_finite_inputs
import proofs.«107229_j75557064671746_2_alg».proof.Proof.LibFiniteTest
import Idealize.ShloMosaic.Lib.ReduceAll

noncomputable section

namespace Cert.Finite

open Idealize.ShloMosaic Idealize.ShloMosaic.FiniteTest Cert.Pre_finite_inputs

instance : Subsingleton S_.Idx := subsingleton_scalarIdx

/-- Under the precondition the features and the first-layer weights are real numbers, entry by entry. -/
theorem features_and_weights_real (a0 : FVec Ideal S100000x1 .f32) (a1 : IVec S2x1600000 32) (a2 : FVec Ideal S1x35 .f32)
    (a3 : FVec Ideal S35 .f32) (a4 : FVec Ideal S35x1 .f32) (a5 : FVec Ideal S1 .f32)
    (h : fn (F := Ideal) a0 a1 a2 a3 a4 a5 = fun _ => 1#1) :
    (∀ i, ∃ r : ℝ, a0 i = r) ∧ (∀ i, ∃ r : ℝ, a2 i = r) := by
  have h0 := congrFun h ValueIdx.ix0
  dsimp only [fn, fn_part1] at h0
  have h0' : IntOp.andi _ _ = 1#1 := h0
  obtain ⟨h1, -⟩ := IntOp.andi_eq_one.1 h0'
  have h1' : IntOp.andi _ _ = 1#1 := h1
  obtain ⟨h2, -⟩ := IntOp.andi_eq_one.1 h1'
  have h2' : IntOp.andi _ _ = 1#1 := h2
  obtain ⟨h3, -⟩ := IntOp.andi_eq_one.1 h2'
  have h3' : IntOp.andi _ _ = 1#1 := h3
  obtain ⟨h4, h5⟩ := IntOp.andi_eq_one.1 h3'
  exact ⟨fun i => real_of_test a0 Facts.bcast_S_S100000x1 i (Host.reduce_andi_all _ _ _ _ _ h4 i),
    fun i => real_of_test a2 Facts.bcast_S_S1x35 i (Host.reduce_andi_all _ _ _ _ _ h5 i)⟩

end Cert.Finite

end
-- ==== Proof.lean ====
/-
  A two-layer graph convolution on scalar node features (100000 nodes, 1600000 edges plus one self-loop per node, 35 hidden
  units), as two fused row-block kernels among host gathers and scatter-adds, against the plain reference.

  Both programs build the same graph data from the edge list by the same operations: for each of the 1700000 edges its
  destination (where its message is added), its source (which node it reads) and its weight ν e = dinv(src e) · dinv(dst e), with
  dinv i = (if 0 < deg i then deg i ^ (−1/2) else 0). At the ideal values both results are, at node n,
      σ( Σ_e [e lands on n] hidden(row e) · ν e + b2 ),   hidden m = Σ_f σ( (Σ_e [e lands on m] x(row e) · ν e) · W1 f + b1 f ) · W2 f,
  with σ z = 1 / (1 + exp (−z)) (Proof/EdgeLayers.lean).

  * The reference multiplies by W1 BEFORE it sums along the edges, Σ_e (x(row e) · W1 f) · ν e; the kernel program sums first and
    multiplies in the first kernel. The two agree by distributivity, which on the extended reals needs every summand finite:
    x and W1 are finite by the precondition (Proof/Finite.lean), and ν is a real number for EVERY edge list, because
    d ↦ (if 0 < d then d^(−1/2) else 0) is real at every extended real, +∞ included (Proof/Graph.lean). This is the only use of
    the precondition.
  * The reference's side is read stage by stage at coordinates (Proof/RefValue.lean); a gather reads the row its index names,
    clamped into range; a scatter-add at an entry is the sum of the updates whose index is exactly that entry
    (Proof/LibLeadingAxis.lean).
  * The kernel program's side: each launch leaves in its output array one whole-array function of the arrays it finds (its 20
    blocks of 5000 rows tile the array: Proof/KernelRegions.lean, over the bodies' stored columns of Proof/KernelBody.lean); the
    host stretches between the launches are terms of what they find, and their index vectors and weights are the reference's
    terms of the edge list (Proof/KernelHost.lean); put together in Proof/KernelValue.lean, over the run of Proof/KernelRun.lean.
  The kernel is its own idealization (no rewrite was applied), so that conjunct is trivial.
-/
import proofs.«107229_j75557064671746_2_alg».proof.Defs
import proofs.«107229_j75557064671746_2_alg».proof.Proof.Gen.Kernel
import proofs.«107229_j75557064671746_2_alg».proof.Proof.Gen.Kernel.Skeleton
import proofs.«107229_j75557064671746_2_alg».proof.Proof.Gen.Kernel.Launch
import proofs.«107229_j75557064671746_2_alg».proof.Proof.Gen.Kernel.Points
import proofs.«107229_j75557064671746_2_alg».proof.Proof.Gen.Kernel.Frame
import proofs.«107229_j75557064671746_2_alg».proof.Proof.Gen.KernelIdeal
import proofs.«107229_j75557064671746_2_alg».proof.Proof.Gen.KernelIdeal.Skeleton
import proofs.«107229_j75557064671746_2_alg».proof.Proof.Gen.KernelIdeal.Launch
import proofs.«107229_j75557064671746_2_alg».proof.Proof.Gen.KernelIdeal.Points
import proofs.«107229_j75557064671746_2_alg».proof.Proof.Gen.KernelIdeal.Frame
import proofs.«107229_j75557064671746_2_alg».proof.Proof.Gen.ReferenceIdeal
import proofs.«107229_j75557064671746_2_alg».proof.Proof.RunP
import proofs.«107229_j75557064671746_2_alg».proof.Proof.ReadP
import proofs.«107229_j75557064671746_2_alg».proof.Proof.Gen.Pre_finite_inputs
import proofs.«107229_j75557064671746_2_alg».proof.Proof.RefValue
import proofs.«107229_j75557064671746_2_alg».proof.Proof.KernelValue
import proofs.«107229_j75557064671746_2_alg».proof.Proof.KernelRun
import proofs.«107229_j75557064671746_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the two-layer function of the shared graph at every node. -/
theorem algebraic : Cert.algebraic_KernelIdeal_ReferenceIdeal := by
  intro m ρ m' ρ' hpre hagree
  refine ⟨fun c => Cert.KernelIdeal.Result.res m ρ c,
    (θ_run Cert.KernelIdeal.defs _ _).mono
      (fun _ h c => ⟨(h c).1.trans (Cert.KernelIdeal.Result.res_def m ρ c).symm, (h c).2⟩)
      (Cert.KernelIdeal.RunValue.run (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v74_eq]
  obtain ⟨h0, h1, h2, h3, h4, h5⟩ := hagree c
  rw [h0, h1, h2, h3, h4, h5]
  obtain ⟨hx, hw⟩ := Cert.Finite.features_and_weights_real _ _ _ _ _ _ (hpre c)
  funext i
  obtain ⟨n, q, rfl⟩ : ∃ (n : Fin 100000) (q : Fin 1), i = ix2 n q := ⟨i 0, i 1, eq_ix2 i⟩
  obtain rfl : q = 0 := Subsingleton.elim _ _
  rw [Cert.RefValue.result_at _ _ _ _ _ _ hx hw n]
  exact (Cert.KernelIdeal.Result.result_at m ρ c n).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
